-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x64, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x1, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S50000, .i32⟩
  | 11 => ⟨S850000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x128, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S1x800000, .i32⟩
  | 70 => ⟨S800000, .i32⟩
  | 71 => ⟨S1x800000, .i32⟩
  | 72 => ⟨S800000, .i32⟩
  | 73 => ⟨S50000, .i32⟩
  | 74 => ⟨S850000, .i32⟩
  | 75 => ⟨S850000, .i32⟩
  | 76 => ⟨S_, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S50000x64, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x64, .f32⟩
  | 119 => ⟨S850000x1, .f32⟩
  | 120 => ⟨S850000x64, .f32⟩
  | 121 => ⟨S850000x64, .f32⟩
  | 122 => ⟨S_, .f32⟩
  | 123 => ⟨S50000x64, .f32⟩
  | 124 => ⟨S850000x1, .i32⟩
  | 125 => ⟨S50000x64, .f32⟩
  | 126 => ⟨S1x64, .f32⟩
  | 127 => ⟨S50000x64, .f32⟩
  | _ => ⟨S50000x128, .f32⟩

abbrev hbmTy0_1 (i : Nat) : BufTy := match i % 128 with
  | 0 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelOut.lean ====
/-
  The idealized kernel's run with its RESULT named. The program is nine segments — three stretches of host operations, the
  first matrix product's region, a stretch, the bias-and-maximum region, the second matrix product's region, a stretch, the
  second bias region — and the buffer contents at the segment boundaries are a fold from the launch memory (`W0` … `W9`).
  Every weakly fair execution terminates with every unscoped buffer at the last boundary's contents `W9`; read at the result
  buffer this says what the program returns, and read at the arguments it says they are unchanged.
-/
import proofs.«118282_j57071525429450_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last boundary's
    contents and the six argument arrays as launched. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Out

end
-- ==== Proof.LibMatmul.lean ====
/-
  A plain M × K by K × N matrix product into a zero accumulator, read at one entry: at the exact (extended real) values the
  entry (a, b) is the sum over the contracted coordinate c of A (a, c) · B (c, b) — no rounding and no chunk order left in it.
-/
import Idealize.ShloMosaic.Lib.ValueIdx
import Idealize.ShloMosaic.PureOps.Ideal.Laws

noncomputable section

open scoped BigOperators

namespace Cert.LibMatmul

open Idealize.ShloMosaic Idealize.ShloMosaic.ValueIdx

/-- The product of an `M × K` by a `K × N` matrix accumulated into the zero splat, at entry `(a, b)`, is
    `∑ c, A (a, c) · B (c, b)` over the extended reals. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant (F := Ideal) ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibMatmul

end
-- ==== Proof.LibDotGeneral.lean ====
/-
  A plain M × K by K × N host matrix product (`dot_general` contracting the left operand's second axis with the right
  operand's first), read at one entry: at the exact (extended real) values the entry (a, b) is the sum over the contracted
  coordinate c of A (a, c) · B (c, b), whatever schedule the host uses.
-/
import Idealize.ShloMosaic.Lib.ValueIdx
import Idealize.ShloMosaic.PureOps.Ideal.Laws

noncomputable section

open scoped BigOperators

namespace Cert.LibDotGeneral

open Idealize.ShloMosaic Idealize.ShloMosaic.ValueIdx

/-- The host product of an `M × K` by a `K × N` matrix, at entry `(a, b)`, is `∑ c, A (a, c) · B (c, b)` over the
    extended reals. -/
theorem dotGeneral_plain_apply {M K N : Nat} {φ₁ φ₂ : FTy} (prec : Option ContractPrecision) (sched : HostSchedule)
    (A : FVec Ideal ⟨2, ![M, K]⟩ φ₁) (B : FVec Ideal ⟨2, ![K, N]⟩ φ₂) (a : Fin M) (b : Fin N) :
    FloatOps.dotGeneral (DotDims.plain M K N) prec sched A B (ix2 a b) = ∑ c : Fin K, A (ix2 a c) * B (ix2 c b) := by
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibDotGeneral

end
-- ==== Proof.Region0.lean ====
/-
  Region 0 of the kernel: a 50000 x 128 array times a 128 x 128 matrix, computed in ten blocks of 5000 rows. Grid point t
  reads rows 5000 t … 5000 t + 4999 of the left array and the whole right matrix, and writes the same rows of the result;
  entry (p, q) of its block is the sum over k of left (5000 t + p, k) · right (k, q), which is entry (5000 t + p, q) of the
  whole product. The ten blocks tile the result, so after the region the result array IS the whole product of the two arrays
  the region found (rounding the operands to bf16 on the way in is the identity at the exact values).
-/
import proofs.«118282_j57071525429450_1_alg».proof.Proof.Gen.KernelIdeal.Frame
import proofs.«118282_j57071525429450_1_alg».proof.Proof.LibMatmul
import proofs.«118282_j57071525429450_1_alg».proof.Proof.LibDotGeneral
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The whole product of the two arrays, as the host computes it. -/
abbrev prod (A : FVec Ideal S50000x128 .f32) (B : FVec Ideal S128x128 .f32) : FVec Ideal S50000x128 .f32 :=
  Host.dotGeneral (F := Ideal) (DotDims.plain 50000 128 128) none A B

/-- Entry (P, q) of the whole product. -/
theorem prod_apply (A : FVec Ideal S50000x128 .f32) (B : FVec Ideal S128x128 .f32) (P : Fin 50000) (q : Fin 128) :
    prod A B (ix2 P q) = ∑ k : Fin 128, A (ix2 P k) * B (ix2 k q) :=
  Cert.LibDotGeneral.dotGeneral_plain_apply none .single A B P q

/-- Entry (p, q) of one block's product: the body's stored value. -/
theorem block_apply (x0 : FVec Ideal S5000x128 .f32) (x1 : FVec Ideal S128x128 .f32) (p : Fin 5000) (q : Fin 128) :
    k0_pay1 x0 x1 (ix2 p q) = ∑ k : Fin 128, x0 (ix2 p k) * x1 (ix2 k q) := by
  unfold k0_pay1
  exact Cert.LibMatmul.matmul_plain_zero_apply none _ _ p q

/-- Where each window's block sits at grid point t: the row blocks of the left array and of the result move with t, the
    right matrix stays. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every one of the ten row blocks is some grid point's. -/
theorem block_onto : ∀ b : Fin 10, ∃ t : Fin cfg0.N, win0_2.index t = ![b.val, 0] :=
  (by decide +kernel : ∀ b : Fin 10, ∃ t : Fin grid0.N, win0_2.index t = ![b.val, 0])

/-- What grid point t writes back is its block of the whole product. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := block_index t
  have ht : t.val < 10 := lt_of_lt_of_eq t.isLt (show cfg0.N = 10 from N_0)
  funext j
  obtain ⟨p, q, rfl⟩ : ∃ (p : Fin 5000) (q : Fin 128), j = ix2 p q := ⟨j 0, j 1, eq_ix2 j⟩
  have hp : p.val < 5000 := p.isLt
  have hrow : t.val * 5000 + p.val < 50000 := by omega
  have hout : ((cfg0.win 2).blk t).view.emb (ix2 p q) = ix2 (⟨t.val * 5000 + p.val, hrow⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  show k0_pay1 (iblk0 V c 0 t) (iblk0 V c 1 t) (ix2 p q) = prod (V c main_arg0) (V c main_arg2) (((cfg0.win 2).blk t).view.emb (ix2 p q))
  rw [hout]
  refine (block_apply (iblk0 V c 0 t) (iblk0 V c 1 t) p q).trans
    ((Finset.sum_congr rfl fun k _ => ?_).trans (prod_apply (V c main_arg0) (V c main_arg2) ⟨t.val * 5000 + p.val, hrow⟩ q).symm)
  have hl : iblk0 V c 0 t (ix2 p k) = V c main_arg0 (ix2 (⟨t.val * 5000 + p.val, hrow⟩ : Fin 50000) k) := by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have hr : iblk0 V c 1 t (ix2 k q) = V c main_arg2 (ix2 k q) := by
    show V c main_arg2 (((cfg0.win 1).blk t).view.emb (ix2 k q)) = _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [hl, hr]

/-- An index of the result array is in grid point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Row r of the result lies in the block of grid point r / 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its result array is the whole product of the two arrays it found. -/
theorem value (c : Dev nD) : (dat0 V c).arrAt 2 cfg0.N = prod (V c main_arg0) (V c main_arg2) :=
  (dat0 V c).arrAt_eq_of_cover 2 _ (fun t _ => flushed_eq V c t) covered

end Cert.KernelIdeal.Region0

end
-- ==== Proof.LibLayout.lean ====
/-
  Layout facts about arrays of any element type, read at an entry: a one-row or one-column table repeated along the other
  axis; a vector laid out as one row or one column, by a cast or by a placement along an axis (the two agree);
  putting a coordinate back on the reduced axis 0.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibLayout

open Idealize.ShloMosaic Idealize.ShloMosaic.ValueIdx

variable {α : Type}

/-- A one-row table placed along both axes of an M × N array reads, at (a, b), the table at (0, b). -/
theorem rowInDim_apply {M N : Nat} (v : (⟨2, ![1, N]⟩ : Shape).Idx → α)
    (h : (⟨2, ![1, N]⟩ : Shape).BroadcastsInDim ⟨2, ![M, N]⟩ ![0, 1]) (a : Fin M) (b : Fin N) :
    broadcastInDim ⟨2, ![M, N]⟩ ![0, 1] h v (ix2 a b) = v (ix2 (0 : Fin 1) b) :=
  broadcastInDim_apply ![0, 1] h v (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)

/-- A one-column table placed along both axes of an M × N array reads, at (a, b), the table at (a, 0). -/
theorem colInDim_apply {M N : Nat} (v : (⟨2, ![M, 1]⟩ : Shape).Idx → α)
    (h : (⟨2, ![M, 1]⟩ : Shape).BroadcastsInDim ⟨2, ![M, N]⟩ ![0, 1]) (a : Fin M) (b : Fin N) :
    broadcastInDim ⟨2, ![M, N]⟩ ![0, 1] h v (ix2 a b) = v (ix2 a (0 : Fin 1)) :=
  broadcastInDim_apply ![0, 1] h v (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])

/-- A vector placed along axis 1 of a 1 × N array reads, at (0, b), the vector at b. -/
theorem vecRow_apply {N : Nat} (v : (⟨1, ![N]⟩ : Shape).Idx → α)
    (h : (⟨1, ![N]⟩ : Shape).BroadcastsInDim ⟨2, ![1, N]⟩ ![1]) (b : Fin N) :
    broadcastInDim ⟨2, ![1, N]⟩ ![1] h v (ix2 (0 : Fin 1) b) = v (ix1 b) :=
  broadcastInDim_apply ![1] h v (ix2 (0 : Fin 1) b) (ix1 b) (fun c => by
    match c with
    | ⟨0, _⟩ =>
      show b.val = if N = 1 then 0 else b.val
      split
      · have := b.isLt; omega
      · rfl)

/-- A vector placed along axis 0 of an M × 1 array reads, at (a, 0), the vector at a. -/
theorem vecCol_apply {M : Nat} (v : (⟨1, ![M]⟩ : Shape).Idx → α)
    (h : (⟨1, ![M]⟩ : Shape).BroadcastsInDim ⟨2, ![M, 1]⟩ ![0]) (a : Fin M) :
    broadcastInDim ⟨2, ![M, 1]⟩ ![0] h v (ix2 a (0 : Fin 1)) = v (ix1 a) :=
  broadcastInDim_apply ![0] h v (ix2 a (0 : Fin 1)) (ix1 a) (fun c => by
    match c with
    | ⟨0, _⟩ =>
      show a.val = if M = 1 then 0 else a.val
      split
      · have := a.isLt; omega
      · rfl)

/-- A vector cast to one column reads, at (a, 0), the vector at a. -/
theorem castCol_apply {M : Nat} (v : (⟨1, ![M]⟩ : Shape).Idx → α) (h : (⟨1, ![M]⟩ : Shape).ShapeCasts ⟨2, ![M, 1]⟩) (a : Fin M) :
    shapeCast ⟨2, ![M, 1]⟩ v h (ix2 a (0 : Fin 1)) = v (ix1 a) :=
  shapeCast_apply v h _ _ (by
    rw [Shape.rowMajor_val_two, Shape.rowMajor_val_one]
    show a.val = a.val * 1 + 0
    omega)

/-- Laying a vector out as one row by a cast or by placing it along axis 1 gives the same array. -/
theorem castRow_eq {N : Nat} (v : (⟨1, ![N]⟩ : Shape).Idx → α) (h1 : (⟨1, ![N]⟩ : Shape).ShapeCasts ⟨2, ![1, N]⟩)
    (h2 : (⟨1, ![N]⟩ : Shape).BroadcastsInDim ⟨2, ![1, N]⟩ ![1]) :
    shapeCast ⟨2, ![1, N]⟩ v h1 = broadcastInDim ⟨2, ![1, N]⟩ ![1] h2 v := by
  funext j
  obtain ⟨z, b, rfl⟩ : ∃ (z : Fin 1) (b : Fin N), j = ix2 z b := ⟨j 0, j 1, eq_ix2 j⟩
  obtain rfl : z = 0 := Subsingleton.elim _ _
  rw [shapeCast_a_1a_apply, vecRow_apply]

/-- Laying a vector out as one column by a cast or by placing it along axis 0 gives the same array. -/
theorem castCol_eq {M : Nat} (v : (⟨1, ![M]⟩ : Shape).Idx → α) (h1 : (⟨1, ![M]⟩ : Shape).ShapeCasts ⟨2, ![M, 1]⟩)
    (h2 : (⟨1, ![M]⟩ : Shape).BroadcastsInDim ⟨2, ![M, 1]⟩ ![0]) :
    shapeCast ⟨2, ![M, 1]⟩ v h1 = broadcastInDim ⟨2, ![M, 1]⟩ ![0] h2 v := by
  funext j
  obtain ⟨a, z, rfl⟩ : ∃ (a : Fin M) (z : Fin 1), j = ix2 a z := ⟨j 0, j 1, eq_ix2 j⟩
  obtain rfl : z = 0 := Subsingleton.elim _ _
  rw [castCol_apply, vecCol_apply]

/-- A scalar placed along no axis reads the scalar everywhere. -/
theorem splat_apply {t : Shape} (x : (⟨0, ![]⟩ : Shape).Idx → α) (h : (⟨0, ![]⟩ : Shape).BroadcastsInDim t ![]) (j : t.Idx) :
    broadcastInDim t ![] h x j = x ix0 :=
  broadcastInDim_apply ![] h x j ix0 (fun c => c.elim0)

/-- Putting coordinate k back on axis 0 of a column index g gives the entry (k, g). -/
theorem lift_axis0 {m n : Nat} (h : (⟨2, ![m, n]⟩ : Shape).Reduces [0] (⟨1, ![n]⟩ : Shape)) (g : Fin n)
    (k : Fin ((⟨2, ![m, n]⟩ : Shape).size 0)) : h.lift (ix1 g) k = ix2 (⟨k.val, k.isLt⟩ : Fin m) g := by
  funext c; apply Fin.ext
  fin_cases c <;> rfl

end Cert.LibLayout

end
-- ==== Proof.LibTransposeRepeat.lean ====
/-
  Three layout facts read at an entry, at the exact values: a transposed N x K matrix at (c, n) is the matrix at (n, c);
  an M x 1 column repeated across N columns (a broadcast to M x N) reads the column at its row; a 1 x N row repeated down M
  rows reads the row at its column. Together with a matrix product read as a sum they turn "x times W transposed plus a
  bias row" into sum over c of x(a, c) * W(b, c) + bias(b).
-/
import Idealize.ShloMosaic.Lib.ValueIdx
import Idealize.ShloMosaic.Lib.Pipeline.Value
import Idealize.ShloMosaic.PureOps.Ideal

noncomputable section

namespace Cert.LibTransposeRepeat

open Idealize.ShloMosaic Idealize.ShloMosaic.ValueIdx

/-- A transposed N x K matrix at (c, n) is the matrix at (n, c). -/
theorem transposed_apply {N K : Nat} {φ : FTy} (W : FVec Ideal ⟨2, ![N, K]⟩ φ)
    (h : (⟨2, ![N, K]⟩ : Shape).Transposes [1, 0] ⟨2, ![K, N]⟩) (c : Fin K) (n : Fin N) :
    transpose ⟨2, ![K, N]⟩ [1, 0] W h (ix2 c n) = W (ix2 n c) :=
  transpose_apply [1, 0] W h (ix2 c n) (ix2 n c) (fun b' => by
    match b' with
    | ⟨0, _⟩ => rfl
    | ⟨1, _⟩ => rfl)

/-- An M x 1 column repeated across N columns reads the column at its row. -/
theorem colRepeat_apply {M N : Nat} {φ : FTy} (v : FVec Ideal ⟨2, ![M, 1]⟩ φ)
    (h : (⟨2, ![M, 1]⟩ : Shape).Broadcasts ⟨2, ![M, N]⟩) (a : Fin M) (b : Fin N) :
    broadcastTo ⟨2, ![M, N]⟩ v h (ix2 a b) = v (ix2 a (0 : Fin 1)) :=
  broadcastTo_apply v h (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])

/-- A 1 x N row repeated down M rows reads the row at its column. -/
theorem rowRepeat_apply {M N : Nat} {φ : FTy} (v : FVec Ideal ⟨2, ![1, N]⟩ φ)
    (h : (⟨2, ![1, N]⟩ : Shape).Broadcasts ⟨2, ![M, N]⟩) (a : Fin M) (b : Fin N) :
    broadcastTo ⟨2, ![M, N]⟩ v h (ix2 a b) = v (ix2 (0 : Fin 1) b) :=
  broadcastTo_apply v h (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)

end Cert.LibTransposeRepeat

end
-- ==== Proof.Region1.lean ====
/-
  Region 1 of the kernel: a bias row added to every row of a 50000 x 128 array, then the maximum with zero, in ten blocks of 5000 rows.
  Grid point t reads rows 5000 t … 5000 t + 4999 of the array and the whole 1 x 128 bias row, and writes the same rows of the
  result: entry (p, q) of its block is max (array (5000 t + p, q) + bias (0, q), 0). That is entry (5000 t + p, q) of the whole-array
  expression "array plus the bias row repeated down the rows, maximum with the zero array", and the ten blocks tile the result, so after the
  region the result array IS that expression of the two arrays the region found.
-/
import proofs.«118282_j57071525429450_1_alg».proof.Proof.Gen.KernelIdeal.Frame
import proofs.«118282_j57071525429450_1_alg».proof.Proof.LibLayout
import proofs.«118282_j57071525429450_1_alg».proof.Proof.LibTransposeRepeat
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The whole-array expression: the array plus the bias row placed along both axes, maximum with the zero splat. -/
abbrev whole (hb : S1x128.BroadcastsInDim S50000x128 ![0, 1]) (hz : S_.BroadcastsInDim S50000x128 ![])
    (A : FVec Ideal S50000x128 .f32) (r : FVec Ideal S1x128 .f32) : FVec Ideal S50000x128 .f32 :=
  maximumf (addf A (broadcastInDim S50000x128 ![0, 1] hb r)) (broadcastInDim S50000x128 ![] hz (constant (F := Ideal) S_ .f32 0x00000000#32))

/-- Entry (P, q) of the whole-array expression. -/
theorem whole_apply (hb : S1x128.BroadcastsInDim S50000x128 ![0, 1]) (hz : S_.BroadcastsInDim S50000x128 ![])
    (A : FVec Ideal S50000x128 .f32) (r : FVec Ideal S1x128 .f32) (P : Fin 50000) (q : Fin 128) :
    whole hb hz A r (ix2 P q) = max (A (ix2 P q) + r (ix2 (0 : Fin 1) q)) (Ideal.ofBits .f32 0x00000000#32) := by
  show max (A (ix2 P q) + broadcastInDim S50000x128 ![0, 1] hb r (ix2 P q)) (broadcastInDim S50000x128 ![] hz (constant (F := Ideal) S_ .f32 0x00000000#32) (ix2 P q)) = _
  rw [Cert.LibLayout.rowInDim_apply, Cert.LibLayout.splat_apply]
  rfl

/-- Entry (p, q) of one block: the body's stored value. -/
theorem block_apply (x0 : FVec Ideal S5000x128 .f32) (x1 : FVec Ideal S1x128 .f32) (p : Fin 5000) (q : Fin 128) :
    k1_pay1 x0 x1 (ix2 p q) = max (x0 (ix2 p q) + x1 (ix2 (0 : Fin 1) q)) (Ideal.ofBits .f32 0x00000000#32) := by
  unfold k1_pay1
  show max (shapeCast S5000x128 x0 _ (ix2 p q) + broadcastTo S5000x128 (shapeCast S1x128 x1 _) _ (ix2 p q)) (Scalar.ofBits (F := Ideal) .f32 0x00000000#32) = _
  rw [shapeCast_self, Cert.LibTransposeRepeat.rowRepeat_apply, shapeCast_self]
  rfl

/-- Where each window's block sits at grid point t: the row blocks of the array and of the result move with t, the bias
    row stays. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every one of the ten row blocks is some grid point's. -/
theorem block_onto : ∀ b : Fin 10, ∃ t : Fin cfg1.N, win1_2.index t = ![b.val, 0] :=
  (by decide +kernel : ∀ b : Fin 10, ∃ t : Fin grid1.N, win1_2.index t = ![b.val, 0])

/-- What grid point t writes back is its block of the whole-array expression. -/
theorem flushed_eq (hb : S1x128.BroadcastsInDim S50000x128 ![0, 1]) (hz : S_.BroadcastsInDim S50000x128 ![]) (c : Dev nD) (t : Fin cfg1.N) :
    (dat1 V c).flushed 2 t = ((cfg1.win 2).blk t).view.read (Elt Ideal) (whole hb hz (V c main_v43) (V c main_v44)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := block_index t
  have ht : t.val < 10 := lt_of_lt_of_eq t.isLt (show cfg1.N = 10 from N_1)
  funext j
  obtain ⟨p, q, rfl⟩ : ∃ (p : Fin 5000) (q : Fin 128), j = ix2 p q := ⟨j 0, j 1, eq_ix2 j⟩
  have hp : p.val < 5000 := p.isLt
  have hrow : t.val * 5000 + p.val < 50000 := by omega
  have hout : ((cfg1.win 2).blk t).view.emb (ix2 p q) = ix2 (⟨t.val * 5000 + p.val, hrow⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  show k1_pay1 (iblk1 V c 0 t) (iblk1 V c 1 t) (ix2 p q)
    = whole hb hz (V c main_v43) (V c main_v44) (((cfg1.win 2).blk t).view.emb (ix2 p q))
  rw [hout]
  refine (block_apply (iblk1 V c 0 t) (iblk1 V c 1 t) p q).trans
    (Eq.trans ?_ (whole_apply hb hz (V c main_v43) (V c main_v44) ⟨t.val * 5000 + p.val, hrow⟩ q).symm)
  have hl : iblk1 V c 0 t (ix2 p q) = V c main_v43 (ix2 (⟨t.val * 5000 + p.val, hrow⟩ : Fin 50000) q) := by
    show V c main_v43 (((cfg1.win 0).blk t).view.emb (ix2 p q)) = _
    refine congrArg (V c main_v43) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have hr : iblk1 V c 1 t (ix2 (0 : Fin 1) q) = V c main_v44 (ix2 (0 : Fin 1) q) := by
    show V c main_v44 (((cfg1.win 1).blk t).view.emb (ix2 (0 : Fin 1) q)) = _
    refine congrArg (V c main_v44) ?_
    funext a; apply Fin.ext
    match a with
    | ⟨0, _⟩ => show win1_1.index t (0 : Fin 2) * 1 + 1 * 0 = 0; omega
    | ⟨1, _⟩ => show win1_1.index t (1 : Fin 2) * 128 + 1 * q.val = q.val; omega
  rw [hl, hr]

/-- An index of the result array is in grid point t's block iff each coordinate is in the block's range on its axis. -/
theorem mem_block (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- Row r of the result lies in the block of grid point r / 5000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := block_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region its result array is the whole-array expression of the two arrays it found. -/
theorem value (hb : S1x128.BroadcastsInDim S50000x128 ![0, 1]) (hz : S_.BroadcastsInDim S50000x128 ![]) (c : Dev nD) :
    (dat1 V c).arrAt 2 cfg1.N = whole hb hz (V c main_v43) (V c main_v44) :=
  (dat1 V c).arrAt_eq_of_cover 2 _ (fun t _ => flushed_eq V hb hz c t) covered

end Cert.KernelIdeal.Region1

end
-- ==== Proof.Region2.lean ====
/-
  Region 2 of the kernel: a 50000 x 128 array times a 128 x 64 matrix, computed in ten blocks of 5000 rows. Grid point t
  reads rows 5000 t … 5000 t + 4999 of the left array and the whole right matrix, and writes the same rows of the result;
  entry (p, q) of its block is the sum over k of left (5000 t + p, k) · right (k, q), which is entry (5000 t + p, q) of the
  whole product. The ten blocks tile the result, so after the region the result array IS the whole product of the two arrays
  the region found (rounding the operands to bf16 on the way in is the identity at the exact values).
-/
import proofs.«118282_j57071525429450_1_alg».proof.Proof.Gen.KernelIdeal.Frame
import proofs.«118282_j57071525429450_1_alg».proof.Proof.LibMatmul
import proofs.«118282_j57071525429450_1_alg».proof.Proof.LibDotGeneral
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The whole product of the two arrays, as the host computes it. -/
abbrev prod (A : FVec Ideal S50000x128 .f32) (B : FVec Ideal S128x64 .f32) : FVec Ideal S50000x64 .f32 :=
  Host.dotGeneral (F := Ideal) (DotDims.plain 50000 128 64) none A B

/-- Entry (P, q) of the whole product. -/
theorem prod_apply (A : FVec Ideal S50000x128 .f32) (B : FVec Ideal S128x64 .f32) (P : Fin 50000) (q : Fin 64) :
    prod A B (ix2 P q) = ∑ k : Fin 128, A (ix2 P k) * B (ix2 k q) :=
  Cert.LibDotGeneral.dotGeneral_plain_apply none .single A B P q

/-- Entry (p, q) of one block's product: the body's stored value. -/
theorem block_apply (x0 : FVec Ideal S5000x128 .f32) (x1 : FVec Ideal S128x64 .f32) (p : Fin 5000) (q : Fin 64) :
    k2_pay1 x0 x1 (ix2 p q) = ∑ k : Fin 128, x0 (ix2 p k) * x1 (ix2 k q) := by
  unfold k2_pay1
  refine (Cert.LibMatmul.matmul_plain_zero_apply none _ _ p q).trans (Finset.sum_congr rfl fun k _ => ?_)
  show shapeCast S5000x128 x0 _ (ix2 p k) * x1 (ix2 k q) = _
  rw [shapeCast_self]

/-- Where each window's block sits at grid point t: the row blocks of the left array and of the result move with t, the
    right matrix stays. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every one of the ten row blocks is some grid point's. -/
theorem block_onto : ∀ b : Fin 10, ∃ t : Fin cfg2.N, win2_2.index t = ![b.val, 0] :=
  (by decide +kernel : ∀ b : Fin 10, ∃ t : Fin grid2.N, win2_2.index t = ![b.val, 0])

/-- What grid point t writes back is its block of the whole product. -/
theorem flushed_eq (c : Dev nD) (t : Fin cfg2.N) :
    (dat2 V c).flushed 2 t = ((cfg2.win 2).blk t).view.read (Elt Ideal) (prod (V c main_v45) (V c main_arg4)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x64) origin]
  obtain ⟨e0, e1, e2, e3, e4, e5⟩ := block_index t
  have ht : t.val < 10 := lt_of_lt_of_eq t.isLt (show cfg2.N = 10 from N_2)
  funext j
  obtain ⟨p, q, rfl⟩ : ∃ (p : Fin 5000) (q : Fin 64), j = ix2 p q := ⟨j 0, j 1, eq_ix2 j⟩
  have hp : p.val < 5000 := p.isLt
  have hrow : t.val * 5000 + p.val < 50000 := by omega
  have hout : ((cfg2.win 2).blk t).view.emb (ix2 p q) = ix2 (⟨t.val * 5000 + p.val, hrow⟩ : Fin 50000) q := by
    funext a; apply Fin.ext
    match a with
    | ⟨0, _⟩ => show win2_2.index t (0 : Fin 2) * 5000 + 1 * p.val = t.val * 5000 + p.val; omega
    | ⟨1, _⟩ => show win2_2.index t (1 : Fin 2) * 64 + 1 * q.val = q.val; omega
  show k2_pay1 (iblk2 V c 0 t) (iblk2 V c 1 t) (ix2 p q) = prod (V c main_v45) (V c main_arg4) (((cfg2.win 2).blk t).view.emb (ix2 p q))
  rw [hout]
  refine (block_apply (iblk2 V c 0 t) (iblk2 V c 1 t) p q).trans
    ((Finset.sum_congr rfl fun k _ => ?_).trans (prod_apply (V c main_v45) (V c main_arg4) ⟨t.val * 5000 + p.val, hrow⟩ q).symm)
  have hl : iblk2 V c 0 t (ix2 p k) = V c main_v45 (ix2 (⟨t.val * 5000 + p.val, hrow⟩ : Fin 50000) k) := by
    show V c main_v45 (((cfg2.win 0).blk t).view.emb (ix2 p k)) = _
    refine congrArg (V c main_v45) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have hr : iblk2 V c 1 t (ix2 k q) = V c main_arg4 (ix2 k q) := by
    show V c main_arg4 (((cfg2.win 1).blk t).view.emb (ix2 k q)) = _
    refine congrArg (V c main_arg4) ?_
    funext a; apply Fin.ext
    match a with
    | ⟨0, _⟩ => show win2_1.index t (0 : Fin 2) * 128 + 1 * k.val = k.val; omega
    | ⟨1, _⟩ => show win2_1.index t (1 : Fin 2) * 64 + 1 * q.val = q.val; omega
  rw [hl, hr]

/-- An index of the result array is in grid point t's block iff each coordinate is in the block's range on its axis. -/
theorem mem_block (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v46).slice (win2_2.rect t)).set ↔ _
  rw [View.set_slice_whole, Rect.mem_set_unit]
  exact Iff.rfl

/-- Row r of the result lies in the block of grid point r / 5000. -/
theorem covered (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := block_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the region its result array is the whole product of the two arrays it found. -/
theorem value (c : Dev nD) : (dat2 V c).arrAt 2 cfg2.N = prod (V c main_v45) (V c main_arg4) :=
  (dat2 V c).arrAt_eq_of_cover 2 _ (fun t _ => flushed_eq V c t) covered

end Cert.KernelIdeal.Region2

end
-- ==== Proof.Region3.lean ====
/-
  Region 3 of the kernel: a bias row added to every row of a 50000 x 64 array in ten blocks of 5000 rows.
  Grid point t reads rows 5000 t … 5000 t + 4999 of the array and the whole 1 x 64 bias row, and writes the same rows of the
  result: entry (p, q) of its block is array (5000 t + p, q) + bias (0, q). That is entry (5000 t + p, q) of the whole-array
  expression "array plus the bias row repeated down the rows", and the ten blocks tile the result, so after the
  region the result array IS that expression of the two arrays the region found.
-/
import proofs.«118282_j57071525429450_1_alg».proof.Proof.Gen.KernelIdeal.Frame
import proofs.«118282_j57071525429450_1_alg».proof.Proof.LibLayout
import proofs.«118282_j57071525429450_1_alg».proof.Proof.LibTransposeRepeat
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The whole-array expression: the array plus the bias row placed along both axes. -/
abbrev whole (hb : S1x64.BroadcastsInDim S50000x64 ![0, 1])
    (A : FVec Ideal S50000x64 .f32) (r : FVec Ideal S1x64 .f32) : FVec Ideal S50000x64 .f32 :=
  addf A (broadcastInDim S50000x64 ![0, 1] hb r)

/-- Entry (P, q) of the whole-array expression. -/
theorem whole_apply (hb : S1x64.BroadcastsInDim S50000x64 ![0, 1])
    (A : FVec Ideal S50000x64 .f32) (r : FVec Ideal S1x64 .f32) (P : Fin 50000) (q : Fin 64) :
    whole hb A r (ix2 P q) = A (ix2 P q) + r (ix2 (0 : Fin 1) q) := by
  show A (ix2 P q) + broadcastInDim S50000x64 ![0, 1] hb r (ix2 P q) = _
  rw [Cert.LibLayout.rowInDim_apply]

/-- Entry (p, q) of one block: the body's stored value. -/
theorem block_apply (x0 : FVec Ideal S5000x64 .f32) (x1 : FVec Ideal S1x64 .f32) (p : Fin 5000) (q : Fin 64) :
    k3_pay1 x0 x1 (ix2 p q) = x0 (ix2 p q) + x1 (ix2 (0 : Fin 1) q) := by
  unfold k3_pay1
  show shapeCast S5000x64 x0 _ (ix2 p q) + broadcastTo S5000x64 (shapeCast S1x64 x1 _) _ (ix2 p q) = _
  rw [shapeCast_self, Cert.LibTransposeRepeat.rowRepeat_apply, shapeCast_self]

/-- Where each window's block sits at grid point t: the row blocks of the array and of the result move with t, the bias
    row stays. -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every one of the ten row blocks is some grid point's. -/
theorem block_onto : ∀ b : Fin 10, ∃ t : Fin cfg3.N, win3_2.index t = ![b.val, 0] :=
  (by decide +kernel : ∀ b : Fin 10, ∃ t : Fin grid3.N, win3_2.index t = ![b.val, 0])

/-- What grid point t writes back is its block of the whole-array expression. -/
theorem flushed_eq (hb : S1x64.BroadcastsInDim S50000x64 ![0, 1]) (c : Dev nD) (t : Fin cfg3.N) :
    (dat3 V c).flushed 2 t = ((cfg3.win 2).blk t).view.read (Elt Ideal) (whole hb (V c main_v59) (V c main_v60)) := by
  show (cfg3.win 2).cut (grid3.coords t) ((dat3 V c).after 2 t) = _
  rw [after3_2]
  unfold out3_2
  rw [View.canon_unit_zero origin]
  simp only [View.ld_unit_zero (S := S5000x64) origin, View.ld_unit_zero (S := S1x64) origin]
  obtain ⟨e0, e1, e2, e3, e4, e5⟩ := block_index t
  have ht : t.val < 10 := lt_of_lt_of_eq t.isLt (show cfg3.N = 10 from N_3)
  funext j
  obtain ⟨p, q, rfl⟩ : ∃ (p : Fin 5000) (q : Fin 64), j = ix2 p q := ⟨j 0, j 1, eq_ix2 j⟩
  have hp : p.val < 5000 := p.isLt
  have hrow : t.val * 5000 + p.val < 50000 := by omega
  have hout : ((cfg3.win 2).blk t).view.emb (ix2 p q) = ix2 (⟨t.val * 5000 + p.val, hrow⟩ : Fin 50000) q := by
    funext a; apply Fin.ext
    match a with
    | ⟨0, _⟩ => show win3_2.index t (0 : Fin 2) * 5000 + 1 * p.val = t.val * 5000 + p.val; omega
    | ⟨1, _⟩ => show win3_2.index t (1 : Fin 2) * 64 + 1 * q.val = q.val; omega
  show k3_pay1 (iblk3 V c 0 t) (iblk3 V c 1 t) (ix2 p q)
    = whole hb (V c main_v59) (V c main_v60) (((cfg3.win 2).blk t).view.emb (ix2 p q))
  rw [hout]
  refine (block_apply (iblk3 V c 0 t) (iblk3 V c 1 t) p q).trans
    (Eq.trans ?_ (whole_apply hb (V c main_v59) (V c main_v60) ⟨t.val * 5000 + p.val, hrow⟩ q).symm)
  have hl : iblk3 V c 0 t (ix2 p q) = V c main_v59 (ix2 (⟨t.val * 5000 + p.val, hrow⟩ : Fin 50000) q) := by
    show V c main_v59 (((cfg3.win 0).blk t).view.emb (ix2 p q)) = _
    refine congrArg (V c main_v59) ?_
    funext a; apply Fin.ext
    match a with
    | ⟨0, _⟩ => show win3_0.index t (0 : Fin 2) * 5000 + 1 * p.val = t.val * 5000 + p.val; omega
    | ⟨1, _⟩ => show win3_0.index t (1 : Fin 2) * 64 + 1 * q.val = q.val; omega
  have hr : iblk3 V c 1 t (ix2 (0 : Fin 1) q) = V c main_v60 (ix2 (0 : Fin 1) q) := by
    show V c main_v60 (((cfg3.win 1).blk t).view.emb (ix2 (0 : Fin 1) q)) = _
    refine congrArg (V c main_v60) ?_
    funext a; apply Fin.ext
    match a with
    | ⟨0, _⟩ => show win3_1.index t (0 : Fin 2) * 1 + 1 * 0 = 0; omega
    | ⟨1, _⟩ => show win3_1.index t (1 : Fin 2) * 64 + 1 * q.val = q.val; omega
  rw [hl, hr]

/-- An index of the result array is in grid point t's block iff each coordinate is in the block's range on its axis. -/
theorem mem_block (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v61).slice (win3_2.rect t)).set ↔ _
  rw [View.set_slice_whole, Rect.mem_set_unit]
  exact Iff.rfl

/-- Row r of the result lies in the block of grid point r / 5000. -/
theorem covered (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := block_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- After the region its result array is the whole-array expression of the two arrays it found. -/
theorem value (hb : S1x64.BroadcastsInDim S50000x64 ![0, 1]) (c : Dev nD) :
    (dat3 V c).arrAt 2 cfg3.N = whole hb (V c main_v59) (V c main_v60) :=
  (dat3 V c).arrAt_eq_of_cover 2 _ (fun t _ => flushed_eq V hb c t) covered

end Cert.KernelIdeal.Region3

end
-- ==== Proof.LibHostCalls.lean ====
/-
  Two general facts for reading back, by hand, the run of a host program that calls module-local functions.

  The operations of an inlined callee are built over typed references, which carry contents to the buffer's own type and
  back; after the run's fold is unfolded every intermediate value sits inside such a round trip. The round trip is the
  identity, for ANY typed reference (no computation on the reference is needed), so one rewriting pass removes them all;
  leaving them to a single definitional check costs time and memory that grow with the nesting (at shapes of a hundred
  million elements, gigabytes). And the contents after two lines of operations run in a row are the second line's from
  the first's, which lets a long line be read in pieces.
-/
import Idealize.ShloMosaic.Lib.StableHlo.Run

noncomputable section

namespace Cert.LibHostCalls

open Idealize.ShloMosaic Idealize.ShloMosaic.StableHlo

variable {τ : Topo} {sig : RefSig} {Val : EltTy → Type}

/-- Contents carried to a typed reference's buffer and back are the contents. -/
theorem ofBuf_toBuf {T : BufTy} (x : TRef sig T) (v : T.Contents Val) : x.ofBuf (x.toBuf v) = v := by
  obtain ⟨r, h, h1, h2⟩ := x
  subst h
  rfl

/-- The contents after two lines of operations in a row are the second line's from the first's. -/
theorem after_append (l₁ l₂ : List (HloOp τ sig Val)) (V : Valuation τ sig Val) :
    after (l₁ ++ l₂) V = after l₂ (after l₁ V) := by
  induction l₁ generalizing V with
  | nil => rfl
  | cons op l ih => exact ih _

end Cert.LibHostCalls

end
-- ==== Proof.Entry.lean ====
/-
  What the kernel's program holds when its first region is entered. Before it the host builds, from the edge array alone,
  the source list and the destination list (each edge's endpoint followed by every node's own index: the self loops), the
  in-degrees by a scatter-add of ones over the destinations, their inverse square roots where the degree is positive, and
  each edge's weight: the product of that quantity at its source and at its destination. These are the same operations the
  reference applies to the same edge array, so the three buffers hold the reference's stages; no operation writes an
  argument array.
-/
import proofs.«118282_j57071525429450_1_alg».proof.Proof.Gen.KernelIdeal.Frame
import proofs.«118282_j57071525429450_1_alg».proof.Proof.RefRead
import proofs.«118282_j57071525429450_1_alg».proof.Proof.LibHostCalls
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo
open Cert.ReferenceIdeal.ReadP

variable (m : (ℓ : Loc nD τ sig) → Buf (Elt Ideal) ℓ) (ρ : Dev nD → PrngReg)

/-- The source list: each edge's source, then every node. -/
theorem sources (c : Dev nD) :
    W3 m ρ c (Proc.devRef .tc main_v5) = val_main_v5 (F := Ideal) (m ((c : Thread nD τ).loc main_arg1)) := by
  dsimp only [W3, W2, W1, W0, hostOps0, hostOps0_1, hostOps0_2]
  after_results_simp
  rfl

/-- The destination list: each edge's destination, then every node. -/
theorem dests (c : Dev nD) :
    W3 m ρ c (Proc.devRef .tc main_v6) = val_main_v6 (F := Ideal) (m ((c : Thread nD τ).loc main_arg1)) := by
  dsimp only [W3, W2, W1, W0, hostOps0, hostOps0_1, hostOps0_2]
  after_results_simp
  rfl

/-! ### The edge weights, stretch by stretch

Read in one piece the weights' term is too deep to compare at once, so each of the three stretches before the first region
is read from whatever contents it starts at: the first leaves the in-degrees' comparison with zero and their inverse square
roots, the second (the selection between the two) leaves the inverse square root where the degree is positive and zero
elsewhere, the third gathers that at each edge's source and destination and multiplies. -/

section Stretches

variable (W : Valuation τ sig (Elt Ideal))

/-- Contents carried to the buffer of a reference whose value type IS its buffer's type are the contents (the transport is
    along an equation of a type with itself). -/
theorem toBuf_own {Val : EltTy → Type} (r : Ref sig .tc) (p : r.ty = r.ty) (q : r.space ≠ .host) (s : r.isScoped = false)
    (v : r.ty.Contents Val) : (TRef.of (sig := sig) (T := r.ty) r p q s).toBuf v = v := rfl

/-- … and back. -/
theorem ofBuf_own {Val : EltTy → Type} (r : Ref sig .tc) (p : r.ty = r.ty) (q : r.space ≠ .host) (s : r.isScoped = false)
    (v : r.ty.Contents Val) : (TRef.of (sig := sig) (T := r.ty) r p q s).ofBuf v = v := rfl

/-- The selection: the inverse square root where the in-degree is positive, zero elsewhere. -/
theorem select_eq (x1 : (⟨S2x800000, .i32⟩ : BufTy).Contents (Elt Ideal))
    (hgt : W (Proc.devRef .tc main_v12) = val_main_v12 (F := Ideal) x1)
    (hrs : W (Proc.devRef .tc main_v13) = val_main_v13 (F := Ideal) x1)
    (hz : W (Proc.devRef .tc main_cst_2) = val_main_cst_2 (F := Ideal)) :
    after hostOps0_1 W (Proc.devRef .tc main_v14) = val_main_v14 (F := Ideal) x1 := by
  dsimp only [hostOps0_1]
  after_results_simp
  rw [hgt, hrs, hz]
  simp only [Cert.LibHostCalls.ofBuf_toBuf]
  have c14 : ∀ p q s (v : (⟨S50000, .f32⟩ : BufTy).Contents (Elt Ideal)),
      (TRef.of (sig := sig) (T := ⟨S50000, .f32⟩) main_v14 p q s).toBuf v = v := fun p q s v => toBuf_own main_v14 p q s v
  have c12 : ∀ p q s (v : (⟨S50000, .i1⟩ : BufTy).Contents (Elt Ideal)),
      (TRef.of (sig := sig) (T := ⟨S50000, .i1⟩) main_v12 p q s).ofBuf v = v := fun p q s v => ofBuf_own main_v12 p q s v
  have c13 : ∀ p q s (v : (⟨S50000, .f32⟩ : BufTy).Contents (Elt Ideal)),
      (TRef.of (sig := sig) (T := ⟨S50000, .f32⟩) main_v13 p q s).ofBuf v = v := fun p q s v => ofBuf_own main_v13 p q s v
  have c2 : ∀ p q s (v : (⟨S_, .f32⟩ : BufTy).Contents (Elt Ideal)),
      (TRef.of (sig := sig) (T := ⟨S_, .f32⟩) main_cst_2 p q s).ofBuf v = v := fun p q s v => ofBuf_own main_cst_2 p q s v
  rw [c14, c12, c13, c2]
  rfl

theorem select_keeps_sources : after hostOps0_1 W (Proc.devRef .tc main_v5) = W (Proc.devRef .tc main_v5) := by
  dsimp only [hostOps0_1]
  after_results_simp

theorem select_keeps_dests : after hostOps0_1 W (Proc.devRef .tc main_v6) = W (Proc.devRef .tc main_v6) := by
  dsimp only [hostOps0_1]
  after_results_simp

/-- The weights from the selected inverse square roots and the two index lists. -/
theorem weights_eq (x1 : (⟨S2x800000, .i32⟩ : BufTy).Contents (Elt Ideal))
    (hsel : W (Proc.devRef .tc main_v14) = val_main_v14 (F := Ideal) x1)
    (hs : W (Proc.devRef .tc main_v5) = val_main_v5 (F := Ideal) x1)
    (hd : W (Proc.devRef .tc main_v6) = val_main_v6 (F := Ideal) x1) :
    after hostOps0_2 W (Proc.devRef .tc main_v29) = val_main_v29 (F := Ideal) x1 := by
  dsimp only [hostOps0_2]
  after_results_simp
  rw [hsel, hs, hd]
  rfl

end Stretches

theorem sources1 (c : Dev nD) : W1 m ρ c (Proc.devRef .tc main_v5) = val_main_v5 (F := Ideal) (m ((c : Thread nD τ).loc main_arg1)) := by
  dsimp only [W1, W0, hostOps0]
  after_results_simp
  rfl

theorem dests1 (c : Dev nD) : W1 m ρ c (Proc.devRef .tc main_v6) = val_main_v6 (F := Ideal) (m ((c : Thread nD τ).loc main_arg1)) := by
  dsimp only [W1, W0, hostOps0]
  after_results_simp
  rfl

/-- Where the in-degree is positive. -/
theorem positive1 (c : Dev nD) : W1 m ρ c (Proc.devRef .tc main_v12) = val_main_v12 (F := Ideal) (m ((c : Thread nD τ).loc main_arg1)) := by
  dsimp only [W1, W0, hostOps0]
  after_results_simp
  rfl

/-- The in-degrees' inverse square roots. -/
theorem rsqrt1 (c : Dev nD) : W1 m ρ c (Proc.devRef .tc main_v13) = val_main_v13 (F := Ideal) (m ((c : Thread nD τ).loc main_arg1)) := by
  dsimp only [W1, W0, hostOps0]
  after_results_simp
  rfl

theorem zero1 (c : Dev nD) : W1 m ρ c (Proc.devRef .tc main_cst_2) = val_main_cst_2 (F := Ideal) := by
  dsimp only [W1, W0, hostOps0]
  after_results_simp
  rfl

theorem selected (c : Dev nD) : W2 m ρ c (Proc.devRef .tc main_v14) = val_main_v14 (F := Ideal) (m ((c : Thread nD τ).loc main_arg1)) :=
  select_eq (W1 m ρ c) _ (positive1 m ρ c) (rsqrt1 m ρ c) (zero1 m ρ c)

/-- The edge weights: inverse square root of the in-degree at the source times the same at the destination. -/
theorem weights (c : Dev nD) :
    W3 m ρ c (Proc.devRef .tc main_v29) = val_main_v29 (F := Ideal) (m ((c : Thread nD τ).loc main_arg1)) :=
  weights_eq (W2 m ρ c) _ (selected m ρ c)
    ((select_keeps_sources (W1 m ρ c)).trans (sources1 m ρ c))
    ((select_keeps_dests (W1 m ρ c)).trans (dests1 m ρ c))

theorem arg0 (c : Dev nD) : W3 m ρ c (Proc.devRef .tc main_arg0) = m ((c : Thread nD τ).loc main_arg0) := by
  dsimp only [W3, W2, W1, W0, hostOps0, hostOps0_1, hostOps0_2]
  after_results_simp

theorem arg2 (c : Dev nD) : W3 m ρ c (Proc.devRef .tc main_arg2) = m ((c : Thread nD τ).loc main_arg2) := by
  dsimp only [W3, W2, W1, W0, hostOps0, hostOps0_1, hostOps0_2]
  after_results_simp

theorem arg3 (c : Dev nD) : W3 m ρ c (Proc.devRef .tc main_arg3) = m ((c : Thread nD τ).loc main_arg3) := by
  dsimp only [W3, W2, W1, W0, hostOps0, hostOps0_1, hostOps0_2]
  after_results_simp

theorem arg4 (c : Dev nD) : W3 m ρ c (Proc.devRef .tc main_arg4) = m ((c : Thread nD τ).loc main_arg4) := by
  dsimp only [W3, W2, W1, W0, hostOps0, hostOps0_1, hostOps0_2]
  after_results_simp

theorem arg5 (c : Dev nD) : W3 m ρ c (Proc.devRef .tc main_arg5) = m ((c : Thread nD τ).loc main_arg5) := by
  dsimp only [W3, W2, W1, W0, hostOps0, hostOps0_1, hostOps0_2]
  after_results_simp

end Cert.KernelIdeal.Entry

end
-- ==== Proof.Aggregate.lean ====
/-
  The host operations between the kernel's regions, read back. After each matrix-product region the host takes the product's
  row at every edge's source (negative indices wrapped by the node count), scales it by the edge's weight, and adds it into
  the row of the edge's destination, starting from zero; it also lays the layer's bias vector out as one row. Whatever the
  buffers hold when such a stretch starts, if the product, the two index lists and the weights are the reference's stages
  then what the stretch leaves is the reference's aggregated stage: the operations are the same ones. The stretch writes
  none of the index lists, the weights or the later arguments. (A vector cast to one row and the same vector placed along
  axis 1 of a one-row array are the same array.)
-/
import proofs.«118282_j57071525429450_1_alg».proof.Proof.Gen.KernelIdeal.Launch
import proofs.«118282_j57071525429450_1_alg».proof.Proof.RefRead
import proofs.«118282_j57071525429450_1_alg».proof.Proof.LibLayout
import Idealize.ShloMosaic.Lib.StableHlo.Run

set_option maxRecDepth 16384

noncomputable section

namespace Cert.KernelIdeal.Aggregate

open Cert.KernelIdeal Cert.KernelIdeal.Gen Idealize.ShloMosaic Idealize.ShloMosaic.TcCoe Idealize.SL.Sem
open Idealize.ShloMosaic.StableHlo
open Cert.ReferenceIdeal.ReadP

variable (W : Valuation τ sig (Elt Ideal))

/-! ## After the first product -/

/-- The first layer's aggregate. -/
theorem layer1 (x0 : (⟨S50000x128, .f32⟩ : BufTy).Contents (Elt Ideal)) (x1 : (⟨S2x800000, .i32⟩ : BufTy).Contents (Elt Ideal))
    (x2 : (⟨S128x128, .f32⟩ : BufTy).Contents (Elt Ideal))
    (hh : W (Proc.devRef .tc main_v30) = val_main_v30 (F := Ideal) x0 x2)
    (hs : W (Proc.devRef .tc main_v5) = val_main_v5 (F := Ideal) x1)
    (hd : W (Proc.devRef .tc main_v6) = val_main_v6 (F := Ideal) x1)
    (hw : W (Proc.devRef .tc main_v29) = val_main_v29 (F := Ideal) x1) :
    after hostOps1 W (Proc.devRef .tc main_v43) = val_main_v43 (F := Ideal) x0 x1 x2 := by
  dsimp only [hostOps1]
  after_results_simp
  rw [hh, hs, hd, hw]
  rfl

/-- The first layer's bias as one row. -/
theorem bias1 (x3 : (⟨S128, .f32⟩ : BufTy).Contents (Elt Ideal)) (h3 : W (Proc.devRef .tc main_arg3) = x3) :
    after hostOps1 W (Proc.devRef .tc main_v44) = val_main_v44 (F := Ideal) x3 := by
  dsimp only [hostOps1]
  after_results_simp
  rw [h3]
  exact Cert.LibLayout.castRow_eq x3 _ _

theorem keeps1_sources : after hostOps1 W (Proc.devRef .tc main_v5) = W (Proc.devRef .tc main_v5) := by
  dsimp only [hostOps1]
  after_results_simp

theorem keeps1_dests : after hostOps1 W (Proc.devRef .tc main_v6) = W (Proc.devRef .tc main_v6) := by
  dsimp only [hostOps1]
  after_results_simp

theorem keeps1_weights : after hostOps1 W (Proc.devRef .tc main_v29) = W (Proc.devRef .tc main_v29) := by
  dsimp only [hostOps1]
  after_results_simp

theorem keeps1_arg4 : after hostOps1 W (Proc.devRef .tc main_arg4) = W (Proc.devRef .tc main_arg4) := by
  dsimp only [hostOps1]
  after_results_simp

theorem keeps1_arg5 : after hostOps1 W (Proc.devRef .tc main_arg5) = W (Proc.devRef .tc main_arg5) := by
  dsimp only [hostOps1]
  after_results_simp

/-! ## After the second product -/

/-- The second layer's aggregate. The reference builds the index lists and the weights a second time from the same edge
    array; they are the same terms, so the kernel's buffers, which hold the first copies, serve. -/
theorem layer2 (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal))
    (hh : W (Proc.devRef .tc main_v46) = val_main_v78 (F := Ideal) x0 x1 x2 x3 x4)
    (hs : W (Proc.devRef .tc main_v5) = val_main_v5 (F := Ideal) x1)
    (hd : W (Proc.devRef .tc main_v6) = val_main_v6 (F := Ideal) x1)
    (hw : W (Proc.devRef .tc main_v29) = val_main_v29 (F := Ideal) x1) :
    after hostOps3 W (Proc.devRef .tc main_v59) = val_main_v91 (F := Ideal) x0 x1 x2 x3 x4 := by
  dsimp only [hostOps3]
  after_results_simp
  rw [hh, hs, hd, hw]
  rfl

/-- The second layer's bias as one row. -/
theorem bias2 (x5 : (⟨S64, .f32⟩ : BufTy).Contents (Elt Ideal)) (h5 : W (Proc.devRef .tc main_arg5) = x5) :
    after hostOps3 W (Proc.devRef .tc main_v60) = val_main_v92 (F := Ideal) x5 := by
  dsimp only [hostOps3]
  after_results_simp
  rw [h5]
  exact Cert.LibLayout.castRow_eq x5 _ _

end Cert.KernelIdeal.Aggregate

end
-- ==== Proof.Result.lean ====
/-
  The value the kernel's program returns, followed through its nine segments. With x the node features, e the edge array,
  W1, b1, W2, b2 the layers' weights and biases:
    entering the first region the buffers hold the source list, the destination list and the edge weights of e;
    the first region leaves x · W1; the host stretch after it leaves the weighted aggregate of x · W1 and b1 as a row;
    the second region leaves max (aggregate + b1, 0), the hidden features h; the third leaves h · W2;
    the host stretch after it leaves the weighted aggregate of h · W2 and b2 as a row; the last region adds b2.
  Each of these is the reference's own stage of the same arguments (the regions by their whole-array values, the host
  stretches because they are the reference's operations), so the result buffer ends at the reference's result stage. A
  buffer a segment does not write is carried through it unchanged.
-/
import proofs.«118282_j57071525429450_1_alg».proof.Proof.Region0
import proofs.«118282_j57071525429450_1_alg».proof.Proof.Region1
import proofs.«118282_j57071525429450_1_alg».proof.Proof.Region2
import proofs.«118282_j57071525429450_1_alg».proof.Proof.Region3
import proofs.«118282_j57071525429450_1_alg».proof.Proof.Entry
import proofs.«118282_j57071525429450_1_alg».proof.Proof.Aggregate

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo
open Cert.ReferenceIdeal.ReadP

variable (m : (ℓ : Loc nD τ sig) → Buf (Elt Ideal) ℓ) (ρ : Dev nD → PrngReg)

/-! ## Buffers carried through the segments that do not write them -/

theorem sources4 (c : Dev nD) : W4 m ρ c (Proc.devRef .tc main_v5) = val_main_v5 (F := Ideal) (m ((c : Thread nD τ).loc main_arg1)) :=
  (W4_of_ne m ρ c main_v5 (by decide)).trans (Entry.sources m ρ c)
theorem sources6 (c : Dev nD) : W6 m ρ c (Proc.devRef .tc main_v5) = val_main_v5 (F := Ideal) (m ((c : Thread nD τ).loc main_arg1)) :=
  (W6_of_ne m ρ c main_v5 (by decide)).trans ((Aggregate.keeps1_sources (W4 m ρ c)).trans (sources4 m ρ c))
theorem sources7 (c : Dev nD) : W7 m ρ c (Proc.devRef .tc main_v5) = val_main_v5 (F := Ideal) (m ((c : Thread nD τ).loc main_arg1)) :=
  (W7_of_ne m ρ c main_v5 (by decide)).trans (sources6 m ρ c)

theorem dests4 (c : Dev nD) : W4 m ρ c (Proc.devRef .tc main_v6) = val_main_v6 (F := Ideal) (m ((c : Thread nD τ).loc main_arg1)) :=
  (W4_of_ne m ρ c main_v6 (by decide)).trans (Entry.dests m ρ c)
theorem dests6 (c : Dev nD) : W6 m ρ c (Proc.devRef .tc main_v6) = val_main_v6 (F := Ideal) (m ((c : Thread nD τ).loc main_arg1)) :=
  (W6_of_ne m ρ c main_v6 (by decide)).trans ((Aggregate.keeps1_dests (W4 m ρ c)).trans (dests4 m ρ c))
theorem dests7 (c : Dev nD) : W7 m ρ c (Proc.devRef .tc main_v6) = val_main_v6 (F := Ideal) (m ((c : Thread nD τ).loc main_arg1)) :=
  (W7_of_ne m ρ c main_v6 (by decide)).trans (dests6 m ρ c)

theorem weights4 (c : Dev nD) : W4 m ρ c (Proc.devRef .tc main_v29) = val_main_v29 (F := Ideal) (m ((c : Thread nD τ).loc main_arg1)) :=
  (W4_of_ne m ρ c main_v29 (by decide)).trans (Entry.weights m ρ c)
theorem weights6 (c : Dev nD) : W6 m ρ c (Proc.devRef .tc main_v29) = val_main_v29 (F := Ideal) (m ((c : Thread nD τ).loc main_arg1)) :=
  (W6_of_ne m ρ c main_v29 (by decide)).trans ((Aggregate.keeps1_weights (W4 m ρ c)).trans (weights4 m ρ c))
theorem weights7 (c : Dev nD) : W7 m ρ c (Proc.devRef .tc main_v29) = val_main_v29 (F := Ideal) (m ((c : Thread nD τ).loc main_arg1)) :=
  (W7_of_ne m ρ c main_v29 (by decide)).trans (weights6 m ρ c)

theorem arg5_4 (c : Dev nD) : W4 m ρ c (Proc.devRef .tc main_arg5) = m ((c : Thread nD τ).loc main_arg5) :=
  (W4_of_ne m ρ c main_arg5 (by decide)).trans (Entry.arg5 m ρ c)
theorem arg5_6 (c : Dev nD) : W6 m ρ c (Proc.devRef .tc main_arg5) = m ((c : Thread nD τ).loc main_arg5) :=
  (W6_of_ne m ρ c main_arg5 (by decide)).trans ((Aggregate.keeps1_arg5 (W4 m ρ c)).trans (arg5_4 m ρ c))
theorem arg5_7 (c : Dev nD) : W7 m ρ c (Proc.devRef .tc main_arg5) = m ((c : Thread nD τ).loc main_arg5) :=
  (W7_of_ne m ρ c main_arg5 (by decide)).trans (arg5_6 m ρ c)

theorem arg3_4 (c : Dev nD) : W4 m ρ c (Proc.devRef .tc main_arg3) = m ((c : Thread nD τ).loc main_arg3) :=
  (W4_of_ne m ρ c main_arg3 (by decide)).trans (Entry.arg3 m ρ c)
theorem arg4_4 (c : Dev nD) : W4 m ρ c (Proc.devRef .tc main_arg4) = m ((c : Thread nD τ).loc main_arg4) :=
  (W4_of_ne m ρ c main_arg4 (by decide)).trans (Entry.arg4 m ρ c)
theorem arg4_6 (c : Dev nD) : W6 m ρ c (Proc.devRef .tc main_arg4) = m ((c : Thread nD τ).loc main_arg4) :=
  (W6_of_ne m ρ c main_arg4 (by decide)).trans ((Aggregate.keeps1_arg4 (W4 m ρ c)).trans (arg4_4 m ρ c))

/-! ## The stages -/

/-- The first region leaves x · W1. -/
theorem product1 (c : Dev nD) :
    W4 m ρ c (Proc.devRef .tc main_v30) = val_main_v30 (F := Ideal) (m ((c : Thread nD τ).loc main_arg0)) (m ((c : Thread nD τ).loc main_arg2)) := by
  refine (W4_arr m ρ c 2).trans ?_
  refine (Region0.value (V3 m ρ) c).trans ?_
  show Region0.prod (W3 m ρ c (Proc.devRef .tc main_arg0)) (W3 m ρ c (Proc.devRef .tc main_arg2)) = _
  rw [Entry.arg0 m ρ c, Entry.arg2 m ρ c]
  rfl

/-- The stretch after it leaves the weighted aggregate of x · W1. -/
theorem aggregate1 (c : Dev nD) :
    W5 m ρ c (Proc.devRef .tc main_v43) = val_main_v43 (F := Ideal) (m ((c : Thread nD τ).loc main_arg0)) (m ((c : Thread nD τ).loc main_arg1)) (m ((c : Thread nD τ).loc main_arg2)) :=
  Aggregate.layer1 (W4 m ρ c) _ _ _ (product1 m ρ c) (sources4 m ρ c) (dests4 m ρ c) (weights4 m ρ c)

/-- … and b1 as a row. -/
theorem biasRow1 (c : Dev nD) : W5 m ρ c (Proc.devRef .tc main_v44) = val_main_v44 (F := Ideal) (m ((c : Thread nD τ).loc main_arg3)) :=
  Aggregate.bias1 (W4 m ρ c) _ (arg3_4 m ρ c)

/-- The second region leaves the hidden features max (aggregate + b1, 0). -/
theorem hidden (c : Dev nD) :
    W6 m ρ c (Proc.devRef .tc main_v45) = val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ?_
  refine (Region1.value (V5 m ρ) Cert.ReferenceIdeal.Gen.bcast_S1x128_S50000x128_0_1 Cert.ReferenceIdeal.Gen.bcast_S_S50000x128 c).trans ?_
  show Region1.whole Cert.ReferenceIdeal.Gen.bcast_S1x128_S50000x128_0_1 Cert.ReferenceIdeal.Gen.bcast_S_S50000x128
    (W5 m ρ c (Proc.devRef .tc main_v43)) (W5 m ρ c (Proc.devRef .tc main_v44)) = _
  rw [aggregate1 m ρ c, biasRow1 m ρ c]
  rfl

/-- The third region leaves h · W2. -/
theorem product2 (c : Dev nD) :
    W7 m ρ c (Proc.devRef .tc main_v46) = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  refine (Region2.value (V6 m ρ) c).trans ?_
  show Region2.prod (W6 m ρ c (Proc.devRef .tc main_v45)) (W6 m ρ c (Proc.devRef .tc main_arg4)) = _
  rw [hidden m ρ c, arg4_6 m ρ c]
  rfl

/-- The stretch after it leaves the weighted aggregate of h · W2. -/
theorem aggregate2 (c : Dev nD) :
    W8 m ρ c (Proc.devRef .tc main_v59) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  Aggregate.layer2 (W7 m ρ c) _ _ _ _ _ (product2 m ρ c) (sources7 m ρ c) (dests7 m ρ c) (weights7 m ρ c)

/-- … and b2 as a row. -/
theorem biasRow2 (c : Dev nD) : W8 m ρ c (Proc.devRef .tc main_v60) = val_main_v92 (F := Ideal) (m ((c : Thread nD τ).loc main_arg5)) :=
  Aggregate.bias2 (W7 m ρ c) _ (arg5_7 m ρ c)

/-- The last region adds b2: the result buffer ends at the reference's result stage. -/
theorem result (c : Dev nD) :
    W9 m ρ c (Proc.devRef .tc main_v61)
      = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ?_
  refine (Region3.value (V8 m ρ) Cert.ReferenceIdeal.Gen.bcast_S1x64_S50000x64_0_1 c).trans ?_
  show Region3.whole Cert.ReferenceIdeal.Gen.bcast_S1x64_S50000x64_0_1
    (W8 m ρ c (Proc.devRef .tc main_v59)) (W8 m ρ c (Proc.devRef .tc main_v60)) = _
  rw [aggregate2 m ρ c, biasRow2 m ρ c]
  rfl

end Cert.KernelIdeal.Result

end
-- ==== Proof.lean ====
/-
  A two-layer graph convolution, kernel against reference, at the exact (extended real) values.

  With x the node features (50000 x 128), e the edge array (2 x 800000 node indices), and W1, b1, W2, b2 the layers' weights
  and biases, both programs add a self loop at every node, take each node's in-degree d, give the edge from s to t the weight
  d(s)^(-1/2) · d(t)^(-1/2) (zero where a degree is not positive), and compute
      h   = max (A (x · W1) + b1, 0),      out = A (h · W2) + b2,
  where A sums, into each node's row, the weighted rows of the nodes its incoming edges start from. The kernel does the two
  matrix products and the two bias steps in tiled regions (ten blocks of 5000 rows each, the product's operands rounded to
  bf16 on the way in, which changes nothing at the exact values) and leaves the gathering and summing to host operations
  between the regions; the reference does everything on the host and recomputes the weights for the second layer. The host
  operations are the same on both sides, so the claim comes down to four facts, one per region: a tiled product is the whole
  product, and a tiled row-wise bias (and maximum) is the whole-array one. No law that needs finite values is used: the
  precondition is never opened.

  The three frames: the kernel's two are its generated run's; the reference's is its run with the result dropped. The
  idealization rewrote nothing, so there is nothing to preserve. For the equivalence the common value is the reference's
  result stage of the kernel's arguments: the kernel's run ends there (Proof/KernelOut.lean, Proof/Result.lean), and so does
  the reference's, from arguments that agree.
-/
import proofs.«118282_j57071525429450_1_alg».proof.Defs
import proofs.«118282_j57071525429450_1_alg».proof.Proof.Gen.Kernel
import proofs.«118282_j57071525429450_1_alg».proof.Proof.Gen.Kernel.Skeleton
import proofs.«118282_j57071525429450_1_alg».proof.Proof.Gen.Kernel.Launch
import proofs.«118282_j57071525429450_1_alg».proof.Proof.Gen.Kernel.Points
import proofs.«118282_j57071525429450_1_alg».proof.Proof.Gen.Kernel.Frame
import proofs.«118282_j57071525429450_1_alg».proof.Proof.Gen.KernelIdeal
import proofs.«118282_j57071525429450_1_alg».proof.Proof.Gen.KernelIdeal.Skeleton
import proofs.«118282_j57071525429450_1_alg».proof.Proof.Gen.KernelIdeal.Launch
import proofs.«118282_j57071525429450_1_alg».proof.Proof.Gen.KernelIdeal.Points
import proofs.«118282_j57071525429450_1_alg».proof.Proof.Gen.KernelIdeal.Frame
import proofs.«118282_j57071525429450_1_alg».proof.Proof.Gen.ReferenceIdeal
import proofs.«118282_j57071525429450_1_alg».proof.Proof.Gen.Pre_finite_inputs
import proofs.«118282_j57071525429450_1_alg».proof.Proof.RefRead
import proofs.«118282_j57071525429450_1_alg».proof.Proof.KernelOut
import proofs.«118282_j57071525429450_1_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs, from memories that agree on the six arguments, end with the same result: the reference's result stage
    of those arguments. -/
theorem algebraic : Cert.algebraic_KernelIdeal_ReferenceIdeal := by
  intro m ρ m' ρ' _ hagree
  refine ⟨fun c => Cert.ReferenceIdeal.ReadP.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.result m ρ c), (h c).2⟩)
      (Cert.KernelIdeal.Out.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v94_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
